-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16x1 .f32) (main_arg9 : FVec F S1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S16 .f32) (main_arg6 : FVec F S16x16 .f32) (main_arg7 : FVec F S16 .f32) (main_arg8 : FVec F S16x1 .f32) (main_arg9 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) (main_arg6 : FVec F S16x16 .f32) (main_arg7 : FVec F S16 .f32) (main_arg8 : FVec F S16x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x16 : Shape := ⟨2, ![1, 16]⟩
abbrev S1x1 : Shape := ⟨2, ![1, 1]⟩
abbrev S100000x16 : Shape := ⟨2, ![100000, 16]⟩
abbrev S10000x128 : Shape := ⟨2, ![10000, 128]⟩
abbrev S10000x16 : Shape := ⟨2, ![10000, 16]⟩
abbrev S3200000x16 : Shape := ⟨2, ![3200000, 16]⟩
abbrev S10000x1 : Shape := ⟨2, ![10000, 1]⟩

abbrev nBuf : Space → Nat
  | .hbm => 85
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S3200000, .f32⟩
  | .hbm, ⟨43, _⟩ => ⟨S100000, .f32⟩
  | .hbm, ⟨44, _⟩ => ⟨S100000x1, .f32⟩
  | .hbm, ⟨45, _⟩ => ⟨S1x16, .f32⟩
  | .hbm, ⟨46, _⟩ => ⟨S1x16, .f32⟩
  | .hbm, ⟨47, _⟩ => ⟨S1x16, .f32⟩
  | .hbm, ⟨48, _⟩ => ⟨S1x1, .f32⟩
  | .hbm, ⟨49, _⟩ => ⟨S100000x16, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x16, .f32⟩
  | .hbm, ⟨59, _⟩ => ⟨S3200000x1, .f32⟩
  | .hbm, ⟨60, _⟩ => ⟨S3200000x16, .f32⟩
  | .hbm, ⟨61, _⟩ => ⟨S3200000x16, .f32⟩
  | .hbm, ⟨62, _⟩ => ⟨S_, .f32⟩
  | .hbm, ⟨63, _⟩ => ⟨S100000x16, .f32⟩
  | .hbm, ⟨64, _⟩ => ⟨S3200000x1, .i32⟩
  | .hbm, ⟨65, _⟩ => ⟨S100000x16, .f32⟩
  | .hbm, ⟨66, _⟩ => ⟨S100000x16, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x16, .f32⟩
  | .hbm, ⟨76, _⟩ => ⟨S3200000x1, .f32⟩
  | .hbm, ⟨77, _⟩ => ⟨S3200000x16, .f32⟩
  | .hbm, ⟨78, _⟩ => ⟨S3200000x16, .f32⟩
  | .hbm, ⟨79, _⟩ => ⟨S_, .f32⟩
  | .hbm, ⟨80, _⟩ => ⟨S100000x16, .f32⟩
  | .hbm, ⟨81, _⟩ => ⟨S3200000x1, .i32⟩
  | .hbm, ⟨82, _⟩ => ⟨S100000x16, .f32⟩
  | .hbm, ⟨83, _⟩ => ⟨S100000x1, .f32⟩
  | .hbm, ⟨84, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S16x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x1, .f32⟩
  | .local _ .vmem, ⟨20, _⟩ => ⟨S10000x1, .f32⟩
  | .local _ .vmem, ⟨21, _⟩ => ⟨S1x16, .f32⟩
  | .local _ .vmem, ⟨22, _⟩ => ⟨S16x16, .f32⟩
  | .local _ .vmem, ⟨23, _⟩ => ⟨S1x16, .f32⟩
  | .local _ .vmem, ⟨24, _⟩ => ⟨S16x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S10000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S16_S1x16 : S16.ShapeCasts S1x16
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x16_S10000x16_1_0_0_1_n_n_wf : DotDims.WF S10000x128 S128x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x16.size a ≤ S100000x16.size a
  hwx1_5 : ∀ i : grid1.Coords, EltTy.bits .f32 = 32 ∨ (Rect.block (s := S100000x16) S10000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x16.size a ≤ S16x16.size a
  hwx2_4 : ∀ i : grid2.Coords, EltTy.bits .f32 = 32 ∨ (Rect.block (s := S16x16) S16x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x1.size a ≤ S16x1.size a
  hwx2_6 : ∀ i : grid2.Coords, EltTy.bits .f32 = 32 ∨ (Rect.block (s := S16x1) S16x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x1.size a ≤ S100000x1.size a
  hwx2_8 : ∀ i : grid2.Coords, EltTy.bits .f32 = 32 ∨ (Rect.block (s := S100000x1) S10000x1.size (cc2_transform_8 i) (hinb2_8 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S10000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S16x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S16x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S10000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x1, .f32⟩
  | 9 => ⟨S1, .f32⟩
  | 10 => ⟨S1x3200000, .i32⟩
  | 11 => ⟨S3200000, .i32⟩
  | 12 => ⟨S1x3200000, .i32⟩
  | 13 => ⟨S3200000, .i32⟩
  | 14 => ⟨S100000x16, .f32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x16, .f32⟩
  | 53 => ⟨S3200000x1, .f32⟩
  | 54 => ⟨S3200000x16, .f32⟩
  | 55 => ⟨S3200000x16, .f32⟩
  | 56 => ⟨S_, .f32⟩
  | 57 => ⟨S100000x16, .f32⟩
  | 58 => ⟨S3200000x1, .i32⟩
  | 59 => ⟨S100000x16, .f32⟩
  | 60 => ⟨S100000, .f32⟩
  | 61 => ⟨S100000x1, .f32⟩
  | 62 => ⟨S100000x16, .f32⟩
  | 63 => ⟨S100000x16, .f32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .f32⟩
  | 72 => ⟨S_, .f32⟩
  | 73 => ⟨S3200000, .f32⟩
  | 74 => ⟨S_, .f32⟩
  | 75 => ⟨S100000, .f32⟩
  | 76 => ⟨S3200000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000, .f32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x16, .f32⟩
  | 110 => ⟨S3200000x1, .f32⟩
  | 111 => ⟨S3200000x16, .f32⟩
  | 112 => ⟨S3200000x16, .f32⟩
  | 113 => ⟨S_, .f32⟩
  | 114 => ⟨S100000x16, .f32⟩
  | 115 => ⟨S3200000x1, .i32⟩
  | 116 => ⟨S100000x16, .f32⟩
  | 117 => ⟨S100000, .f32⟩
  | 118 => ⟨S100000x1, .f32⟩
  | 119 => ⟨S100000x16, .f32⟩
  | 120 => ⟨S100000x16, .f32⟩
  | 121 => ⟨S100000x16, .f32⟩
  | 122 => ⟨S1x16, .f32⟩
  | 123 => ⟨S100000x16, .f32⟩
  | 124 => ⟨S100000x16, .f32⟩
  | 125 => ⟨S_, .f32⟩
  | 126 => ⟨S100000x16, .f32⟩
  | 127 => ⟨S100000x16, .f32⟩
  | _ => ⟨S100000x128, .f32⟩

abbrev hbmTy0_1 (i : Nat) : BufTy := match i % 128 with
  | 0 => ⟨S100000x16, .f32⟩
  | 1 => ⟨S1x16, .f32⟩
  | 2 => ⟨S100000x16, .f32⟩
  | 3 => ⟨S100000x16, .f32⟩
  | 4 => ⟨S_, .f32⟩
  | 5 => ⟨S100000x16, .f32⟩
  | 6 => ⟨S100000x16, .f32⟩
  | 7 => ⟨S100000x1, .f32⟩
  | 8 => ⟨S1x1, .f32⟩
  | 9 => ⟨S100000x1, .f32⟩
  | 10 => ⟨S100000x1, .f32⟩
  | 11 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_call2_cst : Ref sig .tc := ⟨.hbm, 132, rfl⟩
abbrev main_call2_v0 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x16_S100000x16_1_0_0_1_n_n_wf : DotDims.WF S100000x128 S128x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The kernel program's run, with its result named.

  The program is three pipelined regions among four stretches of host operations. Its buffer contents at the
  segment boundaries are a fold through the program: a stretch of host operations applies its operations' functions,
  a region leaves each of its arrays at what its grid points' write-backs leave and every other buffer alone. The
  last boundary's contents are `W7`. Every weakly fair execution terminates, nothing faults, and the final memory
  holds every unscoped buffer at `W7`; here that is kept for the result buffer (the reshape of the last region's
  output) beside the ten argument arrays, which no segment writes.
-/
import proofs.«153867_j77421080478455_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Whole

end
-- ==== Proof.Stretch0.lean ====
/-
  The host operations before the first region, read at the buffers later segments use.

  Before the first region the program cuts the edge list into its source and destination rows, counts each node's
  incoming edges (a scatter-add of ones), adds the self loop and takes the inverse square root (the node
  normalisation d), gathers d at both ends of every edge and multiplies (the edge weight), squares d and stages
  it as a column, and stages each bias vector as a row. These are the same operations, on the same edge list, that the
  reference applies; each buffer is stated here as the reference's stage of the same name-independent meaning. No
  operation writes an argument array.
-/
import proofs.«153867_j77421080478455_1_alg».proof.Proof.Gen.KernelIdeal.Frame
import proofs.«153867_j77421080478455_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen Cert.ReferenceIdeal.Read

variable (m : (ℓ : Loc nD τ sig) → Buf (Elt Ideal) ℓ) (ρ : Dev nD → PrngReg) (c : Dev nD)

/-- The edges' source row. -/
theorem entry0_src : W1 m ρ c (Proc.devRef .tc main_v1) = val_main_v1 (F := Ideal) (m ((c : Thread nD τ).loc main_arg1)) := by
  show StableHlo.after hostOps0 (W0 m ρ c) (Proc.devRef .tc main_v1) = _
  after_results
  rfl

/-- The edges' destination row. -/
theorem entry0_dst : W1 m ρ c (Proc.devRef .tc main_v3) = val_main_v3 (F := Ideal) (m ((c : Thread nD τ).loc main_arg1)) := by
  show StableHlo.after hostOps0 (W0 m ρ c) (Proc.devRef .tc main_v3) = _
  after_results
  rfl

set_option maxHeartbeats 4000000 in
/-- The edge weights d(src) · d(dst). -/
theorem entry0_weight : W1 m ρ c (Proc.devRef .tc main_v25) = val_main_v26 (F := Ideal) (m ((c : Thread nD τ).loc main_arg1)) := by
  show StableHlo.after hostOps0 (W0 m ρ c) (Proc.devRef .tc main_v25) = _
  after_results_simp
  rfl

/-- The squared normalisation, staged as a column. -/
theorem entry0_selfw : W1 m ρ c (Proc.devRef .tc main_v27)
    = shapeCast S100000x1 (val_main_v40 (F := Ideal) (m ((c : Thread nD τ).loc main_arg1))) shapeCasts_S100000_S100000x1 := by
  show StableHlo.after hostOps0 (W0 m ρ c) (Proc.devRef .tc main_v27) = _
  after_results
  rfl

/-- The four bias vectors, staged as rows. -/
theorem entry0_b1 : W1 m ρ c (Proc.devRef .tc main_v28) = shapeCast S1x16 (m ((c : Thread nD τ).loc main_arg3)) shapeCasts_S16_S1x16 := by
  show StableHlo.after hostOps0 (W0 m ρ c) (Proc.devRef .tc main_v28) = _
  after_results
  rfl
theorem entry0_b2 : W1 m ρ c (Proc.devRef .tc main_v29) = shapeCast S1x16 (m ((c : Thread nD τ).loc main_arg5)) shapeCasts_S16_S1x16 := by
  show StableHlo.after hostOps0 (W0 m ρ c) (Proc.devRef .tc main_v29) = _
  after_results
  rfl
theorem entry0_b3 : W1 m ρ c (Proc.devRef .tc main_v30) = shapeCast S1x16 (m ((c : Thread nD τ).loc main_arg7)) shapeCasts_S16_S1x16 := by
  show StableHlo.after hostOps0 (W0 m ρ c) (Proc.devRef .tc main_v30) = _
  after_results
  rfl
theorem entry0_b4 : W1 m ρ c (Proc.devRef .tc main_v31) = shapeCast S1x1 (m ((c : Thread nD τ).loc main_arg9)) shapeCasts_S1_S1x1 := by
  show StableHlo.after hostOps0 (W0 m ρ c) (Proc.devRef .tc main_v31) = _
  after_results
  rfl

/-- The argument arrays the regions read, untouched. -/
theorem entry0_arg0 : W1 m ρ c (Proc.devRef .tc main_arg0) = m ((c : Thread nD τ).loc main_arg0) := by
  show StableHlo.after hostOps0 (W0 m ρ c) (Proc.devRef .tc main_arg0) = _
  after_results
theorem entry0_arg2 : W1 m ρ c (Proc.devRef .tc main_arg2) = m ((c : Thread nD τ).loc main_arg2) := by
  show StableHlo.after hostOps0 (W0 m ρ c) (Proc.devRef .tc main_arg2) = _
  after_results
theorem entry0_arg4 : W1 m ρ c (Proc.devRef .tc main_arg4) = m ((c : Thread nD τ).loc main_arg4) := by
  show StableHlo.after hostOps0 (W0 m ρ c) (Proc.devRef .tc main_arg4) = _
  after_results
theorem entry0_arg6 : W1 m ρ c (Proc.devRef .tc main_arg6) = m ((c : Thread nD τ).loc main_arg6) := by
  show StableHlo.after hostOps0 (W0 m ρ c) (Proc.devRef .tc main_arg6) = _
  after_results
theorem entry0_arg8 : W1 m ρ c (Proc.devRef .tc main_arg8) = m ((c : Thread nD τ).loc main_arg8) := by
  show StableHlo.after hostOps0 (W0 m ρ c) (Proc.devRef .tc main_arg8) = _
  after_results

end Cert.KernelIdeal.Stretch

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«153867_j77421080478455_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibGraphConvTile.lean ====
/-
  A graph-convolution layer's dense half, on one tile of rows, read at an entry on the extended reals.

  A graph-convolution layer with self loops sends node p's aggregated messages agg(p, ·), its own features h(p, ·)
  weighted by the node's normalisation d(p), and a bias b to

      c(p, k) = max (agg(p, k) + d(p) · h(p, k) + b(k), 0),

  and then multiplies by the next layer's weights: out(p, q) = ∑ k, c(p, k) · w(k, q). A tile body computes this
  for a rows at once: d arrives as an [a, 1] column repeated across the f feature lanes, b as a [1, f] row repeated down
  the rows, the rectified tile and the weights pass through a narrower float format (the identity on the extended
  reals) into the matrix unit, which accumulates into zero. Every extent is generic: the same formulas read a tile and
  the whole array. A head of two more dense layers (bias, rectifier, dense, bias) reads likewise.
-/
import Idealize.ShloMosaic.PureOps.Ideal.Laws
import Idealize.ShloMosaic.Lib.ValueIdx
import Idealize.ShloMosaic.Lib.ValueLayout
import Idealize.ShloMosaic.Lib.Pipeline.Value
import proofs.«153867_j77421080478455_1_alg».proof.Proof.LibDotRecord
import proofs.«153867_j77421080478455_1_alg».proof.Proof.LibRowOps

noncomputable section

namespace GraphConv

open Idealize.ShloMosaic Idealize.ShloMosaic.ValueIdx

variable {a f g n : ℕ}

/-- A dense layer without bias: entry (p, q) of x · w. -/
def denseAt (x : (⟨2, ![a, f]⟩ : Shape).Idx → EReal) (w : (⟨2, ![f, n]⟩ : Shape).Idx → EReal) (p : Fin a) (q : Fin n) : EReal :=
  ∑ k : Fin f, x (ix2 p k) * w (ix2 k q)

/-- The rectified self-loop combination at node p, feature k. -/
def combineAt (agg h : (⟨2, ![a, f]⟩ : Shape).Idx → EReal) (d : (⟨2, ![a, 1]⟩ : Shape).Idx → EReal)
    (b : (⟨2, ![1, f]⟩ : Shape).Idx → EReal) (p : Fin a) (k : Fin f) : EReal :=
  max (agg (ix2 p k) + d (ix2 p (0 : Fin 1)) * h (ix2 p k) + b (ix2 (0 : Fin 1) k)) 0

/-- The combination followed by the next layer's weights: entry (p, q). -/
def layerAt (agg h : (⟨2, ![a, f]⟩ : Shape).Idx → EReal) (d : (⟨2, ![a, 1]⟩ : Shape).Idx → EReal)
    (b : (⟨2, ![1, f]⟩ : Shape).Idx → EReal) (w : (⟨2, ![f, n]⟩ : Shape).Idx → EReal) (p : Fin a) (q : Fin n) : EReal :=
  ∑ k : Fin f, combineAt agg h d b p k * w (ix2 k q)

/-- A bias and rectifier on a layer's output L, then a dense layer with its own bias: entry (p, q). -/
def mlpAt (L : (⟨2, ![a, g]⟩ : Shape).Idx → EReal) (b1 : (⟨2, ![1, g]⟩ : Shape).Idx → EReal)
    (w2 : (⟨2, ![g, n]⟩ : Shape).Idx → EReal) (b2 : (⟨2, ![1, n]⟩ : Shape).Idx → EReal) (p : Fin a) (q : Fin n) : EReal :=
  (∑ j : Fin g, max (L (ix2 p j) + b1 (ix2 (0 : Fin 1) j)) 0 * w2 (ix2 j q)) + b2 (ix2 (0 : Fin 1) q)

/-- The combination followed by a two-layer head: dense, bias, rectifier, dense, bias: entry (p, q). -/
def headAt (agg h : (⟨2, ![a, f]⟩ : Shape).Idx → EReal) (d : (⟨2, ![a, 1]⟩ : Shape).Idx → EReal)
    (b : (⟨2, ![1, f]⟩ : Shape).Idx → EReal) (w1 : (⟨2, ![f, g]⟩ : Shape).Idx → EReal) (b1 : (⟨2, ![1, g]⟩ : Shape).Idx → EReal)
    (w2 : (⟨2, ![g, n]⟩ : Shape).Idx → EReal) (b2 : (⟨2, ![1, n]⟩ : Shape).Idx → EReal) (p : Fin a) (q : Fin n) : EReal :=
  mlpAt (fun i : (⟨2, ![a, g]⟩ : Shape).Idx => layerAt agg h d b w1 (i 0) (i 1)) b1 w2 b2 p q

/-- The scalar zero word denotes 0. -/
theorem scalar_zero : Scalar.ofBits (F := Ideal) .f32 0x00000000#32 = (0 : EReal) := Ideal.ofBits_zero_f32

/-- A tile body's combination — the aggregate plus the column d repeated across the lanes times the features, plus the
    bias row repeated down the rows, rectified against a splat zero — read at (p, k). -/
theorem combine_tile_apply (agg h : FVec Ideal ⟨2, ![a, f]⟩ .f32) (d : FVec Ideal ⟨2, ![a, 1]⟩ .f32) (b : FVec Ideal ⟨2, ![1, f]⟩ .f32)
    (h0 : (⟨2, ![a, f]⟩ : Shape).ShapeCasts ⟨2, ![a, f]⟩) (h1 : (⟨2, ![a, 1]⟩ : Shape).ShapeCasts ⟨2, ![a, 1]⟩)
    (h2 : (⟨2, ![1, f]⟩ : Shape).ShapeCasts ⟨2, ![1, f]⟩)
    (hb1 : (⟨2, ![a, 1]⟩ : Shape).Broadcasts ⟨2, ![a, f]⟩) (hb2 : (⟨2, ![1, f]⟩ : Shape).Broadcasts ⟨2, ![a, f]⟩)
    (p : Fin a) (k : Fin f) :
    maximumf (addf (addf (shapeCast ⟨2, ![a, f]⟩ agg h0)
          (mulf (broadcastTo ⟨2, ![a, f]⟩ (shapeCast ⟨2, ![a, 1]⟩ d h1) hb1) (shapeCast ⟨2, ![a, f]⟩ h h0)))
        (broadcastTo ⟨2, ![a, f]⟩ (shapeCast ⟨2, ![1, f]⟩ b h2) hb2))
      (broadcast ⟨2, ![a, f]⟩ (Scalar.ofBits (F := Ideal) .f32 0x00000000#32)) (ix2 p k)
      = combineAt agg h d b p k := by
  rw [maximumf_apply, addf_apply, addf_apply, mulf_apply, broadcast_apply, scalar_zero]
  simp only [shapeCast_self]
  rw [Gcn.Lib.broadcastTo_a1_ab_apply, broadcastTo_1b_ab_apply]
  rfl

/-- A tile body's layer — the combination narrowed and multiplied by the narrowed weights into a zero accumulator,
    under any printed record of a plain product — read at (p, q). -/
theorem layer_tile_apply (dr : DotDims ⟨2, ![a, f]⟩ ⟨2, ![f, n]⟩ ⟨2, ![a, n]⟩)
    (e1 : dr.lhsContracting = [1]) (e2 : dr.rhsContracting = [0]) (e3 : dr.lhsNonContracting = [0])
    (e4 : dr.rhsNonContracting = [1]) (e5 : dr.lhsBatch = []) (e6 : dr.rhsBatch = [])
    (agg h : FVec Ideal ⟨2, ![a, f]⟩ .f32) (d : FVec Ideal ⟨2, ![a, 1]⟩ .f32) (b : FVec Ideal ⟨2, ![1, f]⟩ .f32)
    (w : FVec Ideal ⟨2, ![f, n]⟩ .f32)
    (h0 : (⟨2, ![a, f]⟩ : Shape).ShapeCasts ⟨2, ![a, f]⟩) (h1 : (⟨2, ![a, 1]⟩ : Shape).ShapeCasts ⟨2, ![a, 1]⟩)
    (h2 : (⟨2, ![1, f]⟩ : Shape).ShapeCasts ⟨2, ![1, f]⟩)
    (hb1 : (⟨2, ![a, 1]⟩ : Shape).Broadcasts ⟨2, ![a, f]⟩) (hb2 : (⟨2, ![1, f]⟩ : Shape).Broadcasts ⟨2, ![a, f]⟩)
    (hlt : FTy.bf16.bits < FTy.f32.bits) (p : Fin a) (q : Fin n) :
    matmul dr none
        (truncf .bf16 (maximumf (addf (addf (shapeCast ⟨2, ![a, f]⟩ agg h0)
              (mulf (broadcastTo ⟨2, ![a, f]⟩ (shapeCast ⟨2, ![a, 1]⟩ d h1) hb1) (shapeCast ⟨2, ![a, f]⟩ h h0)))
            (broadcastTo ⟨2, ![a, f]⟩ (shapeCast ⟨2, ![1, f]⟩ b h2) hb2))
          (broadcast ⟨2, ![a, f]⟩ (Scalar.ofBits (F := Ideal) .f32 0x00000000#32))) hlt)
        (truncf .bf16 w hlt) (constant ⟨2, ![a, n]⟩ .f32 0x00000000#32) (ix2 p q)
      = layerAt agg h d b w p q := by
  refine (DotRecord.matmul_zero_apply dr e1 e2 e3 e4 e5 e6 _ _ none p q).trans ?_
  unfold layerAt
  refine Finset.sum_congr rfl fun k _ => ?_
  rw [truncf_apply, truncf_apply, combine_tile_apply]

/-- A tile body's head after a layer tile L — the bias row repeated down the rows, the rectifier, the narrowed tile times
    the narrowed second weights into a zero accumulator under any printed record of a plain product, the last bias row
    repeated down the rows — read at (p, q). -/
theorem mlp_tile_apply (dr : DotDims ⟨2, ![a, g]⟩ ⟨2, ![g, n]⟩ ⟨2, ![a, n]⟩)
    (e1 : dr.lhsContracting = [1]) (e2 : dr.rhsContracting = [0]) (e3 : dr.lhsNonContracting = [0])
    (e4 : dr.rhsNonContracting = [1]) (e5 : dr.lhsBatch = []) (e6 : dr.rhsBatch = [])
    (L : FVec Ideal ⟨2, ![a, g]⟩ .f32) (b1 : FVec Ideal ⟨2, ![1, g]⟩ .f32) (w2 : FVec Ideal ⟨2, ![g, n]⟩ .f32)
    (b2 : FVec Ideal ⟨2, ![1, n]⟩ .f32)
    (h3 : (⟨2, ![1, g]⟩ : Shape).ShapeCasts ⟨2, ![1, g]⟩) (hb3 : (⟨2, ![1, g]⟩ : Shape).Broadcasts ⟨2, ![a, g]⟩)
    (h4 : (⟨2, ![1, n]⟩ : Shape).ShapeCasts ⟨2, ![1, n]⟩) (hb4 : (⟨2, ![1, n]⟩ : Shape).Broadcasts ⟨2, ![a, n]⟩)
    (hlt : FTy.bf16.bits < FTy.f32.bits) (p : Fin a) (q : Fin n) :
    addf (matmul dr none
          (truncf .bf16 (maximumf (addf L (broadcastTo ⟨2, ![a, g]⟩ (shapeCast ⟨2, ![1, g]⟩ b1 h3) hb3))
            (broadcast ⟨2, ![a, g]⟩ (Scalar.ofBits (F := Ideal) .f32 0x00000000#32))) hlt)
          (truncf .bf16 w2 hlt) (constant ⟨2, ![a, n]⟩ .f32 0x00000000#32))
        (broadcastTo ⟨2, ![a, n]⟩ (shapeCast ⟨2, ![1, n]⟩ b2 h4) hb4) (ix2 p q)
      = mlpAt L b1 w2 b2 p q := by
  rw [addf_apply]
  unfold mlpAt
  refine congrArg₂ (· + ·) ((DotRecord.matmul_zero_apply dr e1 e2 e3 e4 e5 e6 _ _ none p q).trans
    (Finset.sum_congr rfl fun j _ => ?_)) ?_
  · rw [truncf_apply, truncf_apply, maximumf_apply, addf_apply, broadcast_apply, scalar_zero]
    simp only [shapeCast_self]
    rw [broadcastTo_1b_ab_apply]
  · simp only [shapeCast_self]
    rw [broadcastTo_1b_ab_apply]

/-- `mlpAt` only looks at row p of the layer's output. -/
theorem mlpAt_congr (L L' : (⟨2, ![a, g]⟩ : Shape).Idx → EReal) (b1 : (⟨2, ![1, g]⟩ : Shape).Idx → EReal)
    (w2 : (⟨2, ![g, n]⟩ : Shape).Idx → EReal) (b2 : (⟨2, ![1, n]⟩ : Shape).Idx → EReal) (p : Fin a) (q : Fin n)
    (hL : ∀ j : Fin g, L (ix2 p j) = L' (ix2 p j)) : mlpAt L b1 w2 b2 p q = mlpAt L' b1 w2 b2 p q := by
  unfold mlpAt
  exact congrArg (· + _) (Finset.sum_congr rfl fun j _ => by rw [hL j])

end GraphConv

end
-- ==== Proof.Region0.lean ====
/-
  The first region: h1 = x · W1, row tile by row tile.

  The grid has ten points; point t loads rows 10000·t … 10000·t + 9999 of x and the whole of W1, multiplies them in the
  matrix unit into a zero accumulator, and writes the product back as the same rows of the output. The ten row tiles
  cover the output, so after the region the output array holds, at (p, q), the sum over k of x(p, k) · W1(k, q) —
  whatever the buffers held when the region was entered (the entry contents are a parameter here).
-/
import proofs.«153867_j77421080478455_1_alg».proof.Proof.Gen.KernelIdeal.Frame
import proofs.«153867_j77421080478455_1_alg».proof.Proof.LibGraphConvTile
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The tile's product at (p, q): the sum over the 128 contracted columns. -/
theorem tile_apply (x0 : Vec Ideal S10000x128 .f32) (x1 : Vec Ideal S128x16 .f32) (p : Fin 10000) (q : Fin 16) :
    k0_pay1 x0 x1 (ix2 p q) = GraphConv.denseAt x0 x1 p q := by
  unfold k0_pay1
  exact DotRecord.matmul_zero_apply dot_S10000x128_S128x16_S10000x16_1_0_0_1_n_n rfl rfl rfl rfl rfl rfl _ _ none p q

/-- Where each window's block sits at point t: the row tiles move with t, the weights stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row tile t of x: local row p is row 10000·t + p of the array. -/
theorem rows_x (c : Dev nD) (t : Fin cfg0.N) (j : S10000x128.Idx) (i : S100000x128.Idx)
    (h0 : (i 0).val = t.val * 10000 + (j 0).val) (h1 : (i 1).val = (j 1).val) :
    (iblk0 V c 0 t : S10000x128.Idx → EReal) j = (V c main_arg0 : S100000x128.Idx → EReal) i := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 10000 + 1 * (j 0).val = (i 0).val; rw [e0, h0]; omega
  | ⟨1, _⟩ => show win0_0.index t (1 : Fin 2) * 128 + 1 * (j 1).val = (i 1).val; rw [e1, h1]; omega

/-- The weights' block is the whole array at every point. -/
theorem whole_w (c : Dev nD) (t : Fin cfg0.N) (j : S128x16.Idx) :
    (iblk0 V c 1 t : S128x16.Idx → EReal) j = (V c main_arg2 : S128x16.Idx → EReal) j := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 16 + 1 * (j 1).val = (j 1).val; rw [e1]; omega

/-- The output array after the region, as one function of the arrays the region found. -/
def out (c : Dev nD) : S100000x16.Idx → EReal := fun i =>
  GraphConv.denseAt (V c main_arg0 : S100000x128.Idx → EReal) (V c main_arg2 : S128x16.Idx → EReal) (i 0) (i 1)

/-- What point t writes back is row tile t of `out`. -/
theorem flushed_eq (c : Dev nD) (t : Fin cfg0.N) :
    (dat0 V c).flushed 2 t = ((cfg0.win 2).blk t).view.read (Elt Ideal) (out V c) := by
  obtain ⟨-, -, -, -, e0, e1⟩ := index_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  funext j
  obtain ⟨p, q, rfl⟩ : ∃ (p : Fin 10000) (q : Fin 16), j = ix2 p q := ⟨j 0, j 1, eq_ix2 j⟩
  refine (tile_apply (iblk0 V c 0 t) (iblk0 V c 1 t) p q).trans ?_
  rw [View.read_apply]
  unfold out GraphConv.denseAt
  refine Finset.sum_congr rfl fun k _ => ?_
  refine congrArg₂ (· * ·) (rows_x V c t (ix2 p k) _ ?_ rfl) ((whole_w V c t (ix2 k q)).trans (congrArg _ ?_))
  · show _ = t.val * 10000 + p.val
    show win0_2.index t (0 : Fin 2) * 10000 + 1 * p.val = _
    rw [e0]; omega
  · funext a
    apply Fin.ext
    match a with
    | ⟨0, _⟩ => rfl
    | ⟨1, _⟩ => show q.val = win0_2.index t (1 : Fin 2) * 16 + 1 * q.val; rw [e1]; omega

/-- Every row of the output is in the tile of the point its row number divided by 10000 names. -/
theorem covered (i : S100000x16.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 16 := (i 1).isLt
  let t : Fin cfg0.N := ⟨(i 0).val / 10000, by rw [hN]; omega⟩
  have ht : t.val = (i 0).val / 10000 := rfl
  obtain ⟨-, -, -, -, e0, e1⟩ := index_facts t
  refine ⟨t, flush0_2 t, ?_⟩
  show i ∈ ((View.whole main_v32).slice (win0_2.rect t)).set
  rw [View.set_slice_whole, Rect.mem_set_unit]
  intro a
  match a with
  | ⟨0, _⟩ =>
    show win0_2.index t (0 : Fin 2) * 10000 ≤ (i 0).val ∧ (i 0).val < win0_2.index t (0 : Fin 2) * 10000 + 10000
    rw [e0, ht]; omega
  | ⟨1, _⟩ =>
    show win0_2.index t (1 : Fin 2) * 16 ≤ (i 1).val ∧ (i 1).val < win0_2.index t (1 : Fin 2) * 16 + 16
    rw [e1]; omega

/-- After the region its output array is `out` of the arrays it found. -/
theorem array_eq (c : Dev nD) : (dat0 V c).arrAt 2 cfg0.N = out V c :=
  (dat0 V c).arrAt_eq_of_cover 2 (out V c) (fun t _ => flushed_eq V c t) (covered)

end Cert.KernelIdeal.Dense

end
-- ==== Proof.RefLayers.lean ====
/-
  The reference's dense stages as the layer formulas.

  The reference computes each dense stage with whole-array host operations: a product x · W1; then
  max (agg + d² · h + b, 0) · W2 with d² broadcast from a vector of length n across the feature columns and b from a
  vector across the rows; then the same combination followed by the two-layer head. Read at an entry these are the
  formulas `GraphConv.denseAt`, `layerAt` and `headAt` over the whole arrays. The column [n, 1] of the squared
  normalisation and the rows [1, f] of the biases are spelt here as reshapes of the vectors (the form the kernel's
  program stages them in); the reference's own two-step broadcasts read the same vector entries.
-/
import proofs.«153867_j77421080478455_1_alg».proof.Proof.Gen.ReferenceIdeal.Read
import proofs.«153867_j77421080478455_1_alg».proof.Proof.LibGraphConvTile
import Idealize.ShloMosaic.Lib.ValueLayout

set_option maxRecDepth 16384

noncomputable section

open Idealize.ShloMosaic Idealize.ShloMosaic.ValueIdx

namespace Cert.ReferenceIdeal.Layers

open Cert.ReferenceIdeal Cert.ReferenceIdeal.Gen Cert.ReferenceIdeal.Read

/-- The first stage: x · W1 at every entry. -/
theorem dense_eq (x0 : S100000x128.Idx → EReal) (x2 : S128x16.Idx → EReal) :
    val_main_v4 (F := Ideal) x0 x2 = fun i => GraphConv.denseAt x0 x2 (i 0) (i 1) := by
  funext i
  obtain ⟨p, q, rfl⟩ : ∃ (p : Fin 100000) (q : Fin 16), i = ix2 p q := ⟨i 0, i 1, eq_ix2 i⟩
  rw [val_main_v4_apply]
  unfold GraphConv.denseAt
  refine Finset.sum_congr rfl fun k _ => ?_
  have el : lidx_main_v4 (ix2 p q) k = ix2 p k := funext fun a => Fin.ext (by match a with | ⟨0, _⟩ => rfl | ⟨1, _⟩ => rfl)
  have er : ridx_main_v4 (ix2 p q) k = ix2 k q := funext fun a => Fin.ext (by match a with | ⟨0, _⟩ => rfl | ⟨1, _⟩ => rfl)
  rw [el, er]

/-- The second stage: the first graph layer's combination times W2. -/
theorem layer_eq (x0 : S100000x128.Idx → EReal) (x1 : S2x3200000.Idx → BitVec 32) (x2 : S128x16.Idx → EReal)
    (x3 : S16.Idx → EReal) (x4 : S16x16.Idx → EReal)
    (hc1 : S100000.ShapeCasts S100000x1) (hc2 : S16.ShapeCasts S1x16) :
    val_main_v49 (F := Ideal) x0 x1 x2 x3 x4 = fun i =>
      GraphConv.layerAt (val_main_v39 (F := Ideal) x0 x1 x2) (val_main_v4 (F := Ideal) x0 x2)
        (shapeCast S100000x1 (val_main_v40 (F := Ideal) x1) hc1) (shapeCast S1x16 x3 hc2) x4 (i 0) (i 1) := by
  funext i
  obtain ⟨p, q, rfl⟩ : ∃ (p : Fin 100000) (q : Fin 16), i = ix2 p q := ⟨i 0, i 1, eq_ix2 i⟩
  rw [val_main_v49_apply]
  unfold GraphConv.layerAt GraphConv.combineAt
  refine Finset.sum_congr rfl fun k _ => ?_
  have el : lidx_main_v49 (ix2 p q) k = ix2 p k := funext fun a => Fin.ext (by match a with | ⟨0, _⟩ => rfl | ⟨1, _⟩ => rfl)
  have er : ridx_main_v49 (ix2 p q) k = ix2 k q := funext fun a => Fin.ext (by match a with | ⟨0, _⟩ => rfl | ⟨1, _⟩ => rfl)
  have ed : idx_main_v41 (idx_main_v42 (ix2 p k)) = ix1 p := funext fun a => Fin.ext (by match a with | ⟨0, _⟩ => rfl)
  have eb : idx_main_v45 (idx_main_v46 (ix2 p k)) = ix1 k := funext fun a => Fin.ext (by match a with | ⟨0, _⟩ => rfl)
  rw [el, er, val_main_v48_apply, val_main_v47_apply, val_main_v44_apply, val_main_v43_apply, val_main_v42_apply,
    val_main_v41_apply, val_main_v46_apply, val_main_v45_apply, val_main_call0_v0_apply, val_main_call0_cst_apply,
    ed, eb, Gcn.Lib.shapeCast_a_a1_apply, shapeCast_a_1a_apply]
  simp only [Ideal.maximumf_def, Ideal.addf_def, Ideal.mulf_def, Ideal.ofBits_def, Ideal.ofBits_zero_f32]

/-- The third stage: the second graph layer's combination times the head's first weights. -/
theorem layer2_eq (x0 : S100000x128.Idx → EReal) (x1 : S2x3200000.Idx → BitVec 32) (x2 : S128x16.Idx → EReal)
    (x3 : S16.Idx → EReal) (x4 : S16x16.Idx → EReal) (x5 : S16.Idx → EReal) (x6 : S16x16.Idx → EReal)
    (hc1 : S100000.ShapeCasts S100000x1) (hc2 : S16.ShapeCasts S1x16) :
    val_main_v94 (F := Ideal) x0 x1 x2 x3 x4 x5 x6 = fun i =>
      GraphConv.layerAt (val_main_v84 (F := Ideal) x0 x1 x2 x3 x4) (val_main_v49 (F := Ideal) x0 x1 x2 x3 x4)
        (shapeCast S100000x1 (val_main_v85 (F := Ideal) x1) hc1) (shapeCast S1x16 x5 hc2) x6 (i 0) (i 1) := by
  funext i
  obtain ⟨p, q, rfl⟩ : ∃ (p : Fin 100000) (q : Fin 16), i = ix2 p q := ⟨i 0, i 1, eq_ix2 i⟩
  rw [val_main_v94_apply]
  unfold GraphConv.layerAt GraphConv.combineAt
  refine Finset.sum_congr rfl fun k _ => ?_
  have el : lidx_main_v94 (ix2 p q) k = ix2 p k := funext fun a => Fin.ext (by match a with | ⟨0, _⟩ => rfl | ⟨1, _⟩ => rfl)
  have er : ridx_main_v94 (ix2 p q) k = ix2 k q := funext fun a => Fin.ext (by match a with | ⟨0, _⟩ => rfl | ⟨1, _⟩ => rfl)
  have ed : idx_main_v86 (idx_main_v87 (ix2 p k)) = ix1 p := funext fun a => Fin.ext (by match a with | ⟨0, _⟩ => rfl)
  have eb : idx_main_v90 (idx_main_v91 (ix2 p k)) = ix1 k := funext fun a => Fin.ext (by match a with | ⟨0, _⟩ => rfl)
  rw [el, er, val_main_v93_apply, val_main_v92_apply, val_main_v89_apply, val_main_v88_apply, val_main_v87_apply,
    val_main_v86_apply, val_main_v91_apply, val_main_v90_apply, val_main_call1_v0_apply, val_main_call1_cst_apply,
    ed, eb, Gcn.Lib.shapeCast_a_a1_apply, shapeCast_a_1a_apply]
  simp only [Ideal.maximumf_def, Ideal.addf_def, Ideal.mulf_def, Ideal.ofBits_def, Ideal.ofBits_zero_f32]

/-- The last stage before the final reshape: bias, rectifier, the head's second weights, bias. -/
theorem mlp_eq (x0 : S100000x128.Idx → EReal) (x1 : S2x3200000.Idx → BitVec 32) (x2 : S128x16.Idx → EReal)
    (x3 : S16.Idx → EReal) (x4 : S16x16.Idx → EReal) (x5 : S16.Idx → EReal) (x6 : S16x16.Idx → EReal)
    (x7 : S16.Idx → EReal) (x8 : S16x1.Idx → EReal) (x9 : S1.Idx → EReal)
    (hc2 : S16.ShapeCasts S1x16) (hc3 : S1.ShapeCasts S1x1) :
    val_main_v102 (F := Ideal) x0 x1 x2 x3 x4 x5 x6 x7 x8 x9 = fun i =>
      GraphConv.mlpAt (val_main_v94 (F := Ideal) x0 x1 x2 x3 x4 x5 x6) (shapeCast S1x16 x7 hc2) x8 (shapeCast S1x1 x9 hc3)
        (i 0) (i 1) := by
  funext i
  obtain ⟨p, q, rfl⟩ : ∃ (p : Fin 100000) (q : Fin 1), i = ix2 p q := ⟨i 0, i 1, eq_ix2 i⟩
  have eo : idx_main_v100 (idx_main_v101 (ix2 p q)) = ix1 q := funext fun a => Fin.ext (by
    match a with
    | ⟨0, _⟩ => show (0 : ℕ) = q.val; have := q.isLt; omega)
  rw [val_main_v102_apply, val_main_v99_apply, val_main_v101_apply, val_main_v100_apply, eo]
  unfold GraphConv.mlpAt
  rw [shapeCast_a_1a_apply]
  refine congrArg₂ (· + ·) (Finset.sum_congr rfl fun j _ => ?_) rfl
  have el : lidx_main_v99 (ix2 p q) j = ix2 p j := funext fun a => Fin.ext (by match a with | ⟨0, _⟩ => rfl | ⟨1, _⟩ => rfl)
  have er : ridx_main_v99 (ix2 p q) j = ix2 j q := funext fun a => Fin.ext (by match a with | ⟨0, _⟩ => rfl | ⟨1, _⟩ => rfl)
  have eb : idx_main_v95 (idx_main_v96 (ix2 p j)) = ix1 j := funext fun a => Fin.ext (by match a with | ⟨0, _⟩ => rfl)
  rw [el, er, val_main_v98_apply, val_main_v97_apply, val_main_v96_apply, val_main_v95_apply, val_main_call2_v0_apply,
    val_main_call2_cst_apply, eb, shapeCast_a_1a_apply]
  simp only [Ideal.maximumf_def, Ideal.addf_def, Ideal.ofBits_def, Ideal.ofBits_zero_f32]

/-- The reference's result is the reshape of that stage to a vector. -/
theorem result_eq (x0 : S100000x128.Idx → EReal) (x1 : S2x3200000.Idx → BitVec 32) (x2 : S128x16.Idx → EReal)
    (x3 : S16.Idx → EReal) (x4 : S16x16.Idx → EReal) (x5 : S16.Idx → EReal) (x6 : S16x16.Idx → EReal)
    (x7 : S16.Idx → EReal) (x8 : S16x1.Idx → EReal) (x9 : S1.Idx → EReal) :
    val_main_v103 (F := Ideal) x0 x1 x2 x3 x4 x5 x6 x7 x8 x9
      = shapeCast S100000 (val_main_v102 (F := Ideal) x0 x1 x2 x3 x4 x5 x6 x7 x8 x9) shapeCasts_S100000x1_S100000 := rfl

/-! The reference's second graph layer recomputes the node normalisation and the edge weights from the same edge
    list by the same operations: the recomputed stages are the first ones. -/

theorem degree_again (x1 : S2x3200000.Idx → BitVec 32) : val_main_v53 (F := Ideal) x1 = val_main_v8 (F := Ideal) x1 := rfl
theorem norm_again (x1 : S2x3200000.Idx → BitVec 32) : val_main_v56 (F := Ideal) x1 = val_main_v11 (F := Ideal) x1 := by
  unfold val_main_v56 val_main_v11 val_main_v55 val_main_v10
  rw [degree_again]
  rfl
theorem selfw_again (x1 : S2x3200000.Idx → BitVec 32) : val_main_v85 (F := Ideal) x1 = val_main_v40 (F := Ideal) x1 := by
  unfold val_main_v85 val_main_v40
  rw [norm_again]
theorem weight_again (x1 : S2x3200000.Idx → BitVec 32) : val_main_v71 (F := Ideal) x1 = val_main_v26 (F := Ideal) x1 := by
  unfold val_main_v71 val_main_v26 val_main_v63 val_main_v18 val_main_v70 val_main_v25
  rw [norm_again]
  rfl

end Cert.ReferenceIdeal.Layers

end
-- ==== Proof.Stretch1.lean ====
/-
  From the first region to the second.

  The first region leaves h1 = x · W1: the reference's first stage. The sixteen host operations that follow gather
  h1 at every edge's source, weight it by the edge weight, and scatter-add into the destination rows: the same
  operations on the same operands as the reference's first aggregation. The edge rows, the edge weights, the column
  of squared normalisations, the staged bias rows and the argument arrays pass through untouched.
-/
import proofs.«153867_j77421080478455_1_alg».proof.Proof.Gen.KernelIdeal.Frame
import proofs.«153867_j77421080478455_1_alg».proof.Proof.Gen.ReferenceIdeal.Read
import proofs.«153867_j77421080478455_1_alg».proof.Proof.Stretch0
import proofs.«153867_j77421080478455_1_alg».proof.Proof.Region0
import proofs.«153867_j77421080478455_1_alg».proof.Proof.RefLayers
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen Cert.ReferenceIdeal.Read

variable (m : (ℓ : Loc nD τ sig) → Buf (Elt Ideal) ℓ) (ρ : Dev nD → PrngReg) (c : Dev nD)

/-- After the first region its output array is the reference's first stage. -/
theorem exit0_h1 : W2 m ρ c (Proc.devRef .tc main_v32) = val_main_v4 (F := Ideal) (m ((c : Thread nD τ).loc main_arg0)) (m ((c : Thread nD τ).loc main_arg2)) := by
  rw [show W2 m ρ c (Proc.devRef .tc main_v32) = (dat0 (V1 m ρ) c).arrAt 2 cfg0.N from W2_arr m ρ c 2,
    Cert.KernelIdeal.Dense.array_eq, Cert.ReferenceIdeal.Layers.dense_eq]
  unfold Cert.KernelIdeal.Dense.out
  rw [show V1 m ρ c main_arg0 = _ from entry0_arg0 m ρ c, show V1 m ρ c main_arg2 = _ from entry0_arg2 m ρ c]

set_option maxHeartbeats 4000000 in
/-- The sixteen operations, from ANY buffer contents that hold h1, the edge rows and the edge weights where the
    operations read them, leave the reference's first aggregation. -/
theorem aggregate1_of (Vl : Valuation τ sig (Elt Ideal)) (x0 : S100000x128.Idx → EReal) (x1 : S2x3200000.Idx → BitVec 32)
    (x2 : S128x16.Idx → EReal)
    (hh : Vl (Proc.devRef .tc main_v32) = val_main_v4 (F := Ideal) x0 x2)
    (hs : Vl (Proc.devRef .tc main_v1) = val_main_v1 (F := Ideal) x1)
    (hd : Vl (Proc.devRef .tc main_v3) = val_main_v3 (F := Ideal) x1)
    (hw : Vl (Proc.devRef .tc main_v25) = val_main_v26 (F := Ideal) x1) :
    StableHlo.after hostOps1 Vl (Proc.devRef .tc main_v45) = val_main_v39 (F := Ideal) x0 x1 x2 := by
  after_results_simp
  rw [hh, hs, hd, hw]
  rfl

/-- The first aggregation: the reference's scatter-add of the weighted gathered rows of h1. -/
theorem entry1_agg : W3 m ρ c (Proc.devRef .tc main_v45) = val_main_v39 (F := Ideal) (m ((c : Thread nD τ).loc main_arg0)) (m ((c : Thread nD τ).loc main_arg1)) (m ((c : Thread nD τ).loc main_arg2)) :=
  aggregate1_of (W2 m ρ c) _ _ _ (exit0_h1 m ρ c)
    ((W2_of_ne m ρ c main_v1 (by decide)).trans (entry0_src m ρ c))
    ((W2_of_ne m ρ c main_v3 (by decide)).trans (entry0_dst m ρ c))
    ((W2_of_ne m ρ c main_v25 (by decide)).trans (entry0_weight m ρ c))

/-- h1 is still there. -/
theorem entry1_h1 : W3 m ρ c (Proc.devRef .tc main_v32) = val_main_v4 (F := Ideal) (m ((c : Thread nD τ).loc main_arg0)) (m ((c : Thread nD τ).loc main_arg2)) := by
  show StableHlo.after hostOps1 (W2 m ρ c) (Proc.devRef .tc main_v32) = _
  after_results
  rw [exit0_h1]

/-! The buffers that pass through. -/

theorem entry1_src : W3 m ρ c (Proc.devRef .tc main_v1) = val_main_v1 (F := Ideal) (m ((c : Thread nD τ).loc main_arg1)) := by
  show StableHlo.after hostOps1 (W2 m ρ c) (Proc.devRef .tc main_v1) = _
  after_results
  rw [W2_of_ne m ρ c main_v1 (by decide), entry0_src]

theorem entry1_dst : W3 m ρ c (Proc.devRef .tc main_v3) = val_main_v3 (F := Ideal) (m ((c : Thread nD τ).loc main_arg1)) := by
  show StableHlo.after hostOps1 (W2 m ρ c) (Proc.devRef .tc main_v3) = _
  after_results
  rw [W2_of_ne m ρ c main_v3 (by decide), entry0_dst]

theorem entry1_weight : W3 m ρ c (Proc.devRef .tc main_v25) = val_main_v26 (F := Ideal) (m ((c : Thread nD τ).loc main_arg1)) := by
  show StableHlo.after hostOps1 (W2 m ρ c) (Proc.devRef .tc main_v25) = _
  after_results
  rw [W2_of_ne m ρ c main_v25 (by decide), entry0_weight]

theorem entry1_selfw : W3 m ρ c (Proc.devRef .tc main_v27) = shapeCast S100000x1 (val_main_v40 (F := Ideal) (m ((c : Thread nD τ).loc main_arg1))) shapeCasts_S100000_S100000x1 := by
  show StableHlo.after hostOps1 (W2 m ρ c) (Proc.devRef .tc main_v27) = _
  after_results
  rw [W2_of_ne m ρ c main_v27 (by decide), entry0_selfw]

theorem entry1_b1 : W3 m ρ c (Proc.devRef .tc main_v28) = shapeCast S1x16 (m ((c : Thread nD τ).loc main_arg3)) shapeCasts_S16_S1x16 := by
  show StableHlo.after hostOps1 (W2 m ρ c) (Proc.devRef .tc main_v28) = _
  after_results
  rw [W2_of_ne m ρ c main_v28 (by decide), entry0_b1]

theorem entry1_b2 : W3 m ρ c (Proc.devRef .tc main_v29) = shapeCast S1x16 (m ((c : Thread nD τ).loc main_arg5)) shapeCasts_S16_S1x16 := by
  show StableHlo.after hostOps1 (W2 m ρ c) (Proc.devRef .tc main_v29) = _
  after_results
  rw [W2_of_ne m ρ c main_v29 (by decide), entry0_b2]

theorem entry1_b3 : W3 m ρ c (Proc.devRef .tc main_v30) = shapeCast S1x16 (m ((c : Thread nD τ).loc main_arg7)) shapeCasts_S16_S1x16 := by
  show StableHlo.after hostOps1 (W2 m ρ c) (Proc.devRef .tc main_v30) = _
  after_results
  rw [W2_of_ne m ρ c main_v30 (by decide), entry0_b3]

theorem entry1_b4 : W3 m ρ c (Proc.devRef .tc main_v31) = shapeCast S1x1 (m ((c : Thread nD τ).loc main_arg9)) shapeCasts_S1_S1x1 := by
  show StableHlo.after hostOps1 (W2 m ρ c) (Proc.devRef .tc main_v31) = _
  after_results
  rw [W2_of_ne m ρ c main_v31 (by decide), entry0_b4]

theorem entry1_arg4 : W3 m ρ c (Proc.devRef .tc main_arg4) = (m ((c : Thread nD τ).loc main_arg4)) := by
  show StableHlo.after hostOps1 (W2 m ρ c) (Proc.devRef .tc main_arg4) = _
  after_results
  rw [W2_of_ne m ρ c main_arg4 (by decide), entry0_arg4]

theorem entry1_arg6 : W3 m ρ c (Proc.devRef .tc main_arg6) = (m ((c : Thread nD τ).loc main_arg6)) := by
  show StableHlo.after hostOps1 (W2 m ρ c) (Proc.devRef .tc main_arg6) = _
  after_results
  rw [W2_of_ne m ρ c main_arg6 (by decide), entry0_arg6]

theorem entry1_arg8 : W3 m ρ c (Proc.devRef .tc main_arg8) = (m ((c : Thread nD τ).loc main_arg8)) := by
  show StableHlo.after hostOps1 (W2 m ρ c) (Proc.devRef .tc main_arg8) = _
  after_results
  rw [W2_of_ne m ρ c main_arg8 (by decide), entry0_arg8]

end Cert.KernelIdeal.Stretch

end
-- ==== Proof.Region1.lean ====
/-
  The second region: h2 = max (agg1 + d² · h1 + b1, 0) · W2, row tile by row tile.

  Point t of the ten loads rows 10000·t … 10000·t + 9999 of the aggregated messages, of h1 and of the column of squared
  normalisations, and the whole bias row and weight matrix; it adds the self-loop term and the bias, rectifies, and
  multiplies by the weights in the matrix unit; the result goes back as the same rows of the output. The row tiles
  cover the output, so afterwards the output array holds `GraphConv.layerAt` of the five arrays as the region found them.
-/
import proofs.«153867_j77421080478455_1_alg».proof.Proof.Gen.KernelIdeal.Frame
import proofs.«153867_j77421080478455_1_alg».proof.Proof.LibGraphConvTile
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The tile's result at (p, q). -/
theorem tile_apply (x0 x1 : Vec Ideal S10000x16 .f32) (x2 : Vec Ideal S10000x1 .f32) (x3 : Vec Ideal S1x16 .f32)
    (x4 : Vec Ideal S16x16 .f32) (p : Fin 10000) (q : Fin 16) :
    k1_pay1 x0 x2 x1 x3 x4 (ix2 p q) = GraphConv.layerAt x0 x1 x2 x3 x4 p q := by
  unfold k1_pay1
  exact GraphConv.layer_tile_apply dot_S10000x16_S16x16_S10000x16_1_0_0_1_n_n rfl rfl rfl rfl rfl rfl x0 x1 x2 x3 x4 _ _ _ _ _ _ p q

/-- Where each window's block sits at point t: the row tiles move with t, the bias row and the weights stay. -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- Row tile t of the aggregated messages. -/
theorem rows_agg (c : Dev nD) (t : Fin cfg1.N) (j : S10000x16.Idx) (i : S100000x16.Idx)
    (h0 : (i 0).val = t.val * 10000 + (j 0).val) (h1 : (i 1).val = (j 1).val) :
    (iblk1 V c 0 t : S10000x16.Idx → EReal) j = (V c main_v45 : S100000x16.Idx → EReal) i := by
  obtain ⟨⟨e0, e1⟩, -, -, -, -, -⟩ := index_facts t
  unfold iblk1
  rw [View.read_apply]
  show V c main_v45 _ = V c main_v45 _
  congr 1
  funext a
  apply Fin.ext
  match a with
  | ⟨0, _⟩ => show win1_0.index t (0 : Fin 2) * 10000 + 1 * (j 0).val = (i 0).val; rw [e0, h0]; omega
  | ⟨1, _⟩ => show win1_0.index t (1 : Fin 2) * 16 + 1 * (j 1).val = (i 1).val; rw [e1, h1]; omega

/-- Row tile t of the features. -/
theorem rows_h (c : Dev nD) (t : Fin cfg1.N) (j : S10000x16.Idx) (i : S100000x16.Idx)
    (h0 : (i 0).val = t.val * 10000 + (j 0).val) (h1 : (i 1).val = (j 1).val) :
    (iblk1 V c 1 t : S10000x16.Idx → EReal) j = (V c main_v32 : S100000x16.Idx → EReal) i := by
  obtain ⟨-, ⟨e0, e1⟩, -, -, -, -⟩ := index_facts t
  unfold iblk1
  rw [View.read_apply]
  show V c main_v32 _ = V c main_v32 _
  congr 1
  funext a
  apply Fin.ext
  match a with
  | ⟨0, _⟩ => show win1_1.index t (0 : Fin 2) * 10000 + 1 * (j 0).val = (i 0).val; rw [e0, h0]; omega
  | ⟨1, _⟩ => show win1_1.index t (1 : Fin 2) * 16 + 1 * (j 1).val = (i 1).val; rw [e1, h1]; omega

/-- Row tile t of the column of squared normalisations. -/
theorem rows_d (c : Dev nD) (t : Fin cfg1.N) (j : S10000x1.Idx) (i : S100000x1.Idx)
    (h0 : (i 0).val = t.val * 10000 + (j 0).val) (h1 : (i 1).val = (j 1).val) :
    (iblk1 V c 2 t : S10000x1.Idx → EReal) j = (V c main_v27 : S100000x1.Idx → EReal) i := by
  obtain ⟨-, -, ⟨e0, e1⟩, -, -, -⟩ := index_facts t
  unfold iblk1
  rw [View.read_apply]
  show V c main_v27 _ = V c main_v27 _
  congr 1
  funext a
  apply Fin.ext
  match a with
  | ⟨0, _⟩ => show win1_2.index t (0 : Fin 2) * 10000 + 1 * (j 0).val = (i 0).val; rw [e0, h0]; omega
  | ⟨1, _⟩ => show win1_2.index t (1 : Fin 2) * 1 + 1 * (j 1).val = (i 1).val; rw [e1, h1]; omega

/-- The bias row's block is the whole row at every point. -/
theorem whole_b (c : Dev nD) (t : Fin cfg1.N) (j : S1x16.Idx) :
    (iblk1 V c 3 t : S1x16.Idx → EReal) j = (V c main_v28 : S1x16.Idx → EReal) j := by
  obtain ⟨-, -, -, ⟨e0, e1⟩, -, -⟩ := index_facts t
  unfold iblk1
  rw [View.read_apply]
  show V c main_v28 _ = V c main_v28 _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 16 + 1 * (j 1).val = (j 1).val; rw [e1]; omega

/-- The weights' block is the whole matrix at every point. -/
theorem whole_w (c : Dev nD) (t : Fin cfg1.N) (j : S16x16.Idx) :
    (iblk1 V c 4 t : S16x16.Idx → EReal) j = (V c main_arg4 : S16x16.Idx → EReal) j := by
  obtain ⟨-, -, -, -, ⟨e0, e1⟩, -⟩ := index_facts t
  unfold iblk1
  rw [View.read_apply]
  show V c main_arg4 _ = V c main_arg4 _
  congr 1
  funext a
  apply Fin.ext
  match a with
  | ⟨0, _⟩ => show win1_4.index t (0 : Fin 2) * 16 + 1 * (j 0).val = (j 0).val; rw [e0]; omega
  | ⟨1, _⟩ => show win1_4.index t (1 : Fin 2) * 16 + 1 * (j 1).val = (j 1).val; rw [e1]; omega

/-- The output array after the region, as one function of the arrays the region found. -/
def out (c : Dev nD) : S100000x16.Idx → EReal := fun i =>
  GraphConv.layerAt (V c main_v45 : S100000x16.Idx → EReal) (V c main_v32 : S100000x16.Idx → EReal)
    (V c main_v27 : S100000x1.Idx → EReal) (V c main_v28 : S1x16.Idx → EReal) (V c main_arg4 : S16x16.Idx → EReal) (i 0) (i 1)

/-- What point t writes back is row tile t of `out`. -/
theorem flushed_eq (c : Dev nD) (t : Fin cfg1.N) :
    (dat1 V c).flushed 5 t = ((cfg1.win 5).blk t).view.read (Elt Ideal) (out V c) := by
  obtain ⟨-, -, -, -, -, ⟨e0, e1⟩⟩ := index_facts t
  have hN : cfg1.N = 10 := N_1
  have ht : t.val < 10 := hN ▸ t.isLt
  show (cfg1.win 5).cut (grid1.coords t) ((dat1 V c).after 5 t) = _
  rw [after1_5]
  unfold out1_5
  rw [View.canon_unit_zero hz]
  simp only [View.ld_unit_zero (S := S10000x16) hz, View.ld_unit_zero (S := S10000x1) hz, View.ld_unit_zero (S := S1x16) hz,
    View.ld_unit_zero (S := S16x16) hz]
  funext j
  obtain ⟨p, q, rfl⟩ : ∃ (p : Fin 10000) (q : Fin 16), j = ix2 p q := ⟨j 0, j 1, eq_ix2 j⟩
  refine (tile_apply (iblk1 V c 0 t) (iblk1 V c 1 t) (iblk1 V c 2 t) (iblk1 V c 3 t) (iblk1 V c 4 t) p q).trans ?_
  rw [View.read_apply]
  have hE : ((cfg1.win 5).blk t).view.emb (ix2 p q)
      = (ix2 (⟨t.val * 10000 + p.val, by have := p.isLt; omega⟩ : Fin 100000) q : S100000x16.Idx) := by
    funext a
    apply Fin.ext
    match a with
    | ⟨0, _⟩ => show win1_5.index t (0 : Fin 2) * 10000 + 1 * p.val = t.val * 10000 + p.val; rw [e0]; omega
    | ⟨1, _⟩ => show win1_5.index t (1 : Fin 2) * 16 + 1 * q.val = q.val; rw [e1]; omega
  rw [hE]
  show GraphConv.layerAt _ _ _ _ _ p q = GraphConv.layerAt _ _ _ _ _ (⟨t.val * 10000 + p.val, _⟩ : Fin 100000) q
  unfold GraphConv.layerAt GraphConv.combineAt
  refine Finset.sum_congr rfl fun k _ => ?_
  rw [rows_agg V c t (ix2 p k) (ix2 (⟨t.val * 10000 + p.val, by have := p.isLt; omega⟩ : Fin 100000) k) rfl rfl,
    rows_h V c t (ix2 p k) (ix2 (⟨t.val * 10000 + p.val, by have := p.isLt; omega⟩ : Fin 100000) k) rfl rfl,
    rows_d V c t (ix2 p (0 : Fin 1)) (ix2 (⟨t.val * 10000 + p.val, by have := p.isLt; omega⟩ : Fin 100000) (0 : Fin 1)) rfl rfl,
    whole_b V c t (ix2 (0 : Fin 1) k), whole_w V c t (ix2 k q)]

/-- Every row of the output is in the tile of the point its row number divided by 10000 names. -/
theorem covered (i : S100000x16.Idx) :
    ∃ t : Fin cfg1.N, (cfg1.win 5).flush t = true ∧ i ∈ ((cfg1.win 5).blk t).view.set := by
  have hN : cfg1.N = 10 := N_1
  have hi0 : (i 0).val < 100000 := (i 0).isLt
  have hi1 : (i 1).val < 16 := (i 1).isLt
  let t : Fin cfg1.N := ⟨(i 0).val / 10000, by rw [hN]; omega⟩
  have ht : t.val = (i 0).val / 10000 := rfl
  obtain ⟨-, -, -, -, -, ⟨e0, e1⟩⟩ := index_facts t
  refine ⟨t, flush1_5 t, ?_⟩
  show i ∈ ((View.whole main_v46).slice (win1_5.rect t)).set
  rw [View.set_slice_whole, Rect.mem_set_unit]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 16 ≤ (i 1).val ∧ (i 1).val < win1_5.index t (1 : Fin 2) * 16 + 16
    rw [e1]; omega

/-- After the region its output array is `out` of the arrays it found. -/
theorem array_eq (c : Dev nD) : (dat1 V c).arrAt 5 cfg1.N = out V c :=
  (dat1 V c).arrAt_eq_of_cover 5 (out V c) (fun t _ => flushed_eq V c t) (covered)

end Cert.KernelIdeal.Layer1

end
-- ==== Proof.Stretch2.lean ====
/-
  From the second region to the third.

  The second region leaves h2 = max (agg1 + d² · h1 + b1, 0) · W2 at every entry: the reference's second dense stage.
  The sixteen host operations that follow aggregate h2 over the edges exactly as the first aggregation did h1 — the
  reference recomputes the edge weights for its second layer, by the same operations from the same edge list, so its
  weights are the first ones. The carried buffers pass through untouched.
-/
import proofs.«153867_j77421080478455_1_alg».proof.Proof.Gen.KernelIdeal.Frame
import proofs.«153867_j77421080478455_1_alg».proof.Proof.Gen.ReferenceIdeal.Read
import proofs.«153867_j77421080478455_1_alg».proof.Proof.Stretch1
import proofs.«153867_j77421080478455_1_alg».proof.Proof.Region1
import proofs.«153867_j77421080478455_1_alg».proof.Proof.RefLayers
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen Cert.ReferenceIdeal.Read

variable (m : (ℓ : Loc nD τ sig) → Buf (Elt Ideal) ℓ) (ρ : Dev nD → PrngReg) (c : Dev nD)

/-- The second region, entered at ANY buffer contents that hold the first aggregation, h1, the column of squared
    normalisations, the first bias row and W2 where its windows read them, leaves the reference's second dense stage. -/
theorem layer1_of (V : (c : Dev nD) → (b : Ref sig .tc) → Buf (Elt Ideal) ((c : Thread nD τ).loc b))
    (x0 : S100000x128.Idx → EReal) (x1 : S2x3200000.Idx → BitVec 32) (x2 : S128x16.Idx → EReal)
    (x3 : S16.Idx → EReal) (x4 : S16x16.Idx → EReal)
    (ha : V c main_v45 = val_main_v39 (F := Ideal) x0 x1 x2) (hh : V c main_v32 = val_main_v4 (F := Ideal) x0 x2)
    (hd : V c main_v27 = shapeCast S100000x1 (val_main_v40 (F := Ideal) x1) shapeCasts_S100000_S100000x1)
    (hb : V c main_v28 = shapeCast S1x16 x3 shapeCasts_S16_S1x16) (hw : V c main_arg4 = x4) :
    (dat1 V c).arrAt 5 cfg1.N = val_main_v49 (F := Ideal) x0 x1 x2 x3 x4 := by
  rw [Cert.KernelIdeal.Layer1.array_eq,
    Cert.ReferenceIdeal.Layers.layer_eq _ _ _ _ _ shapeCasts_S100000_S100000x1 shapeCasts_S16_S1x16]
  unfold Cert.KernelIdeal.Layer1.out
  rw [ha, hh, hd, hb, hw]

/-- After the second region its output array is the reference's second dense stage. -/
theorem exit1_h2 : W4 m ρ c (Proc.devRef .tc main_v46) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 5).trans (layer1_of c (V3 m ρ) _ _ _ _ _ (entry1_agg m ρ c) (entry1_h1 m ρ c) (entry1_selfw m ρ c)
    (entry1_b1 m ρ c) (entry1_arg4 m ρ c))

set_option maxHeartbeats 4000000 in
/-- The sixteen operations, from ANY buffer contents that hold h2, the edge rows and the edge weights where the
    operations read them, leave the reference's second aggregation (whose weights the reference recomputes: the same). -/
theorem aggregate2_of (Vl : Valuation τ sig (Elt Ideal)) (x0 : S100000x128.Idx → EReal) (x1 : S2x3200000.Idx → BitVec 32) (x2 : S128x16.Idx → EReal)
    (x3 : S16.Idx → EReal) (x4 : S16x16.Idx → EReal)
    (hh : Vl (Proc.devRef .tc main_v46) = val_main_v49 (F := Ideal) x0 x1 x2 x3 x4)
    (hs : Vl (Proc.devRef .tc main_v1) = val_main_v1 (F := Ideal) x1)
    (hd : Vl (Proc.devRef .tc main_v3) = val_main_v3 (F := Ideal) x1)
    (hw : Vl (Proc.devRef .tc main_v25) = val_main_v26 (F := Ideal) x1) :
    StableHlo.after hostOps2 Vl (Proc.devRef .tc main_v59) = val_main_v84 (F := Ideal) x0 x1 x2 x3 x4 := by
  after_results_simp
  rw [hh, hs, hd, hw, ← Cert.ReferenceIdeal.Layers.weight_again]
  rfl

/-- The second aggregation: the reference's scatter-add of the weighted gathered rows of h2. -/
theorem entry2_agg : W5 m ρ c (Proc.devRef .tc main_v59) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  aggregate2_of (W4 m ρ c) _ _ _ _ _ (exit1_h2 m ρ c)
    ((W4_of_ne m ρ c main_v1 (by decide)).trans (entry1_src m ρ c))
    ((W4_of_ne m ρ c main_v3 (by decide)).trans (entry1_dst m ρ c))
    ((W4_of_ne m ρ c main_v25 (by decide)).trans (entry1_weight m ρ c))

/-- h2 is still there. -/
theorem entry2_h2 : W5 m ρ c (Proc.devRef .tc main_v46) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v46) = _
  after_results
  rw [exit1_h2]

/-! The buffers that pass through. -/

/-- The column of squared normalisations is an input window of the second region: read, never written. -/
theorem entry2_selfw : W5 m ρ c (Proc.devRef .tc main_v27) = shapeCast S100000x1 (val_main_v40 (F := Ideal) (m ((c : Thread nD τ).loc main_arg1))) shapeCasts_S100000_S100000x1 := by
  show StableHlo.after hostOps2 (W4 m ρ c) (Proc.devRef .tc main_v27) = _
  after_results
  rw [show W4 m ρ c (Proc.devRef .tc main_v27) = V3 m ρ c main_v27 from
    (W4_arr m ρ c 2).trans (((dat1 (V3 m ρ) c).arrAt_in 2 rfl _).trans (A_eq1 (V3 m ρ) c 2))]
  exact entry1_selfw m ρ c

theorem entry2_b2 : W5 m ρ c (Proc.devRef .tc main_v29) = shapeCast S1x16 (m ((c : Thread nD τ).loc main_arg5)) shapeCasts_S16_S1x16 := by
  show StableHlo.after hostOps2 (W4 m ρ c) (Proc.devRef .tc main_v29) = _
  after_results
  rw [W4_of_ne m ρ c main_v29 (by decide), entry1_b2]

theorem entry2_b3 : W5 m ρ c (Proc.devRef .tc main_v30) = shapeCast S1x16 (m ((c : Thread nD τ).loc main_arg7)) shapeCasts_S16_S1x16 := by
  show StableHlo.after hostOps2 (W4 m ρ c) (Proc.devRef .tc main_v30) = _
  after_results
  rw [W4_of_ne m ρ c main_v30 (by decide), entry1_b3]

theorem entry2_b4 : W5 m ρ c (Proc.devRef .tc main_v31) = shapeCast S1x1 (m ((c : Thread nD τ).loc main_arg9)) shapeCasts_S1_S1x1 := by
  show StableHlo.after hostOps2 (W4 m ρ c) (Proc.devRef .tc main_v31) = _
  after_results
  rw [W4_of_ne m ρ c main_v31 (by decide), entry1_b4]

theorem entry2_arg6 : W5 m ρ c (Proc.devRef .tc main_arg6) = (m ((c : Thread nD τ).loc main_arg6)) := by
  show StableHlo.after hostOps2 (W4 m ρ c) (Proc.devRef .tc main_arg6) = _
  after_results
  rw [W4_of_ne m ρ c main_arg6 (by decide), entry1_arg6]

theorem entry2_arg8 : W5 m ρ c (Proc.devRef .tc main_arg8) = (m ((c : Thread nD τ).loc main_arg8)) := by
  show StableHlo.after hostOps2 (W4 m ρ c) (Proc.devRef .tc main_arg8) = _
  after_results
  rw [W4_of_ne m ρ c main_arg8 (by decide), entry1_arg8]

end Cert.KernelIdeal.Stretch

end
-- ==== Proof.Region2.lean ====
/-
  The third region: out = max (max (agg2 + d² · h2 + b2, 0) · L1 + l1, 0) · L2 + l2, row tile by row tile.

  Point t of the ten loads rows 10000·t … 10000·t + 9999 of the second layer's aggregated messages, of h2 and of the
  column of squared normalisations, and the whole of the small operands (two bias rows, the head's two weight
  matrices, the last bias); it forms the rectified self-loop combination, multiplies by the head's first weights, adds
  a bias and rectifies, multiplies by the second weights and adds the last bias; the [10000, 1] result goes back as the
  same rows of the output column. The row tiles cover it, so afterwards the output holds `GraphConv.headAt` of the
  eight arrays as the region found them.
-/
import proofs.«153867_j77421080478455_1_alg».proof.Proof.Gen.KernelIdeal.Frame
import proofs.«153867_j77421080478455_1_alg».proof.Proof.LibGraphConvTile
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Head

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The tile's result at (p, q). -/
theorem tile_apply (x0 x1 : Vec Ideal S10000x16 .f32) (x2 : Vec Ideal S10000x1 .f32) (x3 : Vec Ideal S1x16 .f32)
    (x4 : Vec Ideal S16x16 .f32) (x5 : Vec Ideal S1x16 .f32) (x6 : Vec Ideal S16x1 .f32) (x7 : Vec Ideal S1x1 .f32)
    (p : Fin 10000) (q : Fin 1) :
    k2_pay1 x0 x2 x1 x3 x4 x5 x6 x7 (ix2 p q) = GraphConv.headAt x0 x1 x2 x3 x4 x5 x6 x7 p q := by
  unfold k2_pay1
  refine (GraphConv.mlp_tile_apply dot_S10000x16_S16x1_S10000x1_1_0_0_1_n_n rfl rfl rfl rfl rfl rfl _ x5 x6 x7 _ _ _ _ _ p q).trans ?_
  unfold GraphConv.headAt
  exact GraphConv.mlpAt_congr _ _ _ _ _ p q fun j =>
    GraphConv.layer_tile_apply dot_S10000x16_S16x16_S10000x16_1_0_0_1_n_n rfl rfl rfl rfl rfl rfl x0 x1 x2 x3 x4 _ _ _ _ _ _ p j

/-- Where each window's block sits at point t: the row tiles move with t, the small operands stay. -/
theorem index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0) :=
  (by decide +kernel : ∀ t : Fin grid2.N, _)

/-- Row tile t of the aggregated messages. -/
theorem rows_agg (c : Dev nD) (t : Fin cfg2.N) (j : S10000x16.Idx) (i : S100000x16.Idx)
    (h0 : (i 0).val = t.val * 10000 + (j 0).val) (h1 : (i 1).val = (j 1).val) :
    (iblk2 V c 0 t : S10000x16.Idx → EReal) j = (V c main_v59 : S100000x16.Idx → EReal) i := by
  obtain ⟨⟨e0, e1⟩, -, -, -, -, -, -, -, -⟩ := index_facts t
  unfold iblk2
  rw [View.read_apply]
  show V c main_v59 _ = V c main_v59 _
  congr 1
  funext a
  apply Fin.ext
  match a with
  | ⟨0, _⟩ => show win2_0.index t (0 : Fin 2) * 10000 + 1 * (j 0).val = (i 0).val; rw [e0, h0]; omega
  | ⟨1, _⟩ => show win2_0.index t (1 : Fin 2) * 16 + 1 * (j 1).val = (i 1).val; rw [e1, h1]; omega

/-- Row tile t of the features. -/
theorem rows_h (c : Dev nD) (t : Fin cfg2.N) (j : S10000x16.Idx) (i : S100000x16.Idx)
    (h0 : (i 0).val = t.val * 10000 + (j 0).val) (h1 : (i 1).val = (j 1).val) :
    (iblk2 V c 1 t : S10000x16.Idx → EReal) j = (V c main_v46 : S100000x16.Idx → EReal) i := by
  obtain ⟨-, ⟨e0, e1⟩, -, -, -, -, -, -, -⟩ := index_facts t
  unfold iblk2
  rw [View.read_apply]
  show V c main_v46 _ = V c main_v46 _
  congr 1
  funext a
  apply Fin.ext
  match a with
  | ⟨0, _⟩ => show win2_1.index t (0 : Fin 2) * 10000 + 1 * (j 0).val = (i 0).val; rw [e0, h0]; omega
  | ⟨1, _⟩ => show win2_1.index t (1 : Fin 2) * 16 + 1 * (j 1).val = (i 1).val; rw [e1, h1]; omega

/-- Row tile t of the column of squared normalisations. -/
theorem rows_d (c : Dev nD) (t : Fin cfg2.N) (j : S10000x1.Idx) (i : S100000x1.Idx)
    (h0 : (i 0).val = t.val * 10000 + (j 0).val) (h1 : (i 1).val = (j 1).val) :
    (iblk2 V c 2 t : S10000x1.Idx → EReal) j = (V c main_v27 : S100000x1.Idx → EReal) i := by
  obtain ⟨-, -, ⟨e0, e1⟩, -, -, -, -, -, -⟩ := index_facts t
  unfold iblk2
  rw [View.read_apply]
  show V c main_v27 _ = V c main_v27 _
  congr 1
  funext a
  apply Fin.ext
  match a with
  | ⟨0, _⟩ => show win2_2.index t (0 : Fin 2) * 10000 + 1 * (j 0).val = (i 0).val; rw [e0, h0]; omega
  | ⟨1, _⟩ => show win2_2.index t (1 : Fin 2) * 1 + 1 * (j 1).val = (i 1).val; rw [e1, h1]; omega

/-- The layer's bias row, whole at every point. -/
theorem whole_b (c : Dev nD) (t : Fin cfg2.N) (j : S1x16.Idx) :
    (iblk2 V c 3 t : S1x16.Idx → EReal) j = (V c main_v29 : S1x16.Idx → EReal) j := by
  obtain ⟨-, -, -, ⟨e0, e1⟩, -, -, -, -, -⟩ := index_facts t
  unfold iblk2
  rw [View.read_apply]
  show V c main_v29 _ = V c main_v29 _
  congr 1
  funext a
  apply Fin.ext
  match a with
  | ⟨0, _⟩ => show win2_3.index t (0 : Fin 2) * 1 + 1 * (j 0).val = (j 0).val; rw [e0]; omega
  | ⟨1, _⟩ => show win2_3.index t (1 : Fin 2) * 16 + 1 * (j 1).val = (j 1).val; rw [e1]; omega

/-- The head's first weights, whole at every point. -/
theorem whole_w1 (c : Dev nD) (t : Fin cfg2.N) (j : S16x16.Idx) :
    (iblk2 V c 4 t : S16x16.Idx → EReal) j = (V c main_arg6 : S16x16.Idx → EReal) j := by
  obtain ⟨-, -, -, -, ⟨e0, e1⟩, -, -, -, -⟩ := index_facts t
  unfold iblk2
  rw [View.read_apply]
  show V c main_arg6 _ = V c main_arg6 _
  congr 1
  funext a
  apply Fin.ext
  match a with
  | ⟨0, _⟩ => show win2_4.index t (0 : Fin 2) * 16 + 1 * (j 0).val = (j 0).val; rw [e0]; omega
  | ⟨1, _⟩ => show win2_4.index t (1 : Fin 2) * 16 + 1 * (j 1).val = (j 1).val; rw [e1]; omega

/-- The head's first bias row, whole at every point. -/
theorem whole_b1 (c : Dev nD) (t : Fin cfg2.N) (j : S1x16.Idx) :
    (iblk2 V c 5 t : S1x16.Idx → EReal) j = (V c main_v30 : S1x16.Idx → EReal) j := by
  obtain ⟨-, -, -, -, -, ⟨e0, e1⟩, -, -, -⟩ := index_facts t
  unfold iblk2
  rw [View.read_apply]
  show V c main_v30 _ = V c main_v30 _
  congr 1
  funext a
  apply Fin.ext
  match a with
  | ⟨0, _⟩ => show win2_5.index t (0 : Fin 2) * 1 + 1 * (j 0).val = (j 0).val; rw [e0]; omega
  | ⟨1, _⟩ => show win2_5.index t (1 : Fin 2) * 16 + 1 * (j 1).val = (j 1).val; rw [e1]; omega

/-- The head's second weights, whole at every point. -/
theorem whole_w2 (c : Dev nD) (t : Fin cfg2.N) (j : S16x1.Idx) :
    (iblk2 V c 6 t : S16x1.Idx → EReal) j = (V c main_arg8 : S16x1.Idx → EReal) j := by
  obtain ⟨-, -, -, -, -, -, ⟨e0, e1⟩, -, -⟩ := index_facts t
  unfold iblk2
  rw [View.read_apply]
  show V c main_arg8 _ = V c main_arg8 _
  congr 1
  funext a
  apply Fin.ext
  match a with
  | ⟨0, _⟩ => show win2_6.index t (0 : Fin 2) * 16 + 1 * (j 0).val = (j 0).val; rw [e0]; omega
  | ⟨1, _⟩ => show win2_6.index t (1 : Fin 2) * 1 + 1 * (j 1).val = (j 1).val; rw [e1]; omega

/-- The last bias, whole at every point. -/
theorem whole_b2 (c : Dev nD) (t : Fin cfg2.N) (j : S1x1.Idx) :
    (iblk2 V c 7 t : S1x1.Idx → EReal) j = (V c main_v31 : S1x1.Idx → EReal) j := by
  obtain ⟨-, -, -, -, -, -, -, ⟨e0, e1⟩, -⟩ := index_facts t
  unfold iblk2
  rw [View.read_apply]
  show V c main_v31 _ = V c main_v31 _
  congr 1
  funext a
  apply Fin.ext
  match a with
  | ⟨0, _⟩ => show win2_7.index t (0 : Fin 2) * 1 + 1 * (j 0).val = (j 0).val; rw [e0]; omega
  | ⟨1, _⟩ => show win2_7.index t (1 : Fin 2) * 1 + 1 * (j 1).val = (j 1).val; rw [e1]; omega

/-- The output column after the region, as one function of the arrays the region found. -/
def out (c : Dev nD) : S100000x1.Idx → EReal := fun i =>
  GraphConv.headAt (V c main_v59 : S100000x16.Idx → EReal) (V c main_v46 : S100000x16.Idx → EReal)
    (V c main_v27 : S100000x1.Idx → EReal) (V c main_v29 : S1x16.Idx → EReal) (V c main_arg6 : S16x16.Idx → EReal)
    (V c main_v30 : S1x16.Idx → EReal) (V c main_arg8 : S16x1.Idx → EReal) (V c main_v31 : S1x1.Idx → EReal) (i 0) (i 1)

/-- What point t writes back is row tile t of `out`. -/
theorem flushed_eq (c : Dev nD) (t : Fin cfg2.N) :
    (dat2 V c).flushed 8 t = ((cfg2.win 8).blk t).view.read (Elt Ideal) (out V c) := by
  obtain ⟨-, -, -, -, -, -, -, -, ⟨e0, e1⟩⟩ := index_facts t
  have hN : cfg2.N = 10 := N_2
  have ht : t.val < 10 := hN ▸ t.isLt
  show (cfg2.win 8).cut (grid2.coords t) ((dat2 V c).after 8 t) = _
  rw [after2_8]
  unfold out2_8
  rw [View.canon_unit_zero hz]
  simp only [View.ld_unit_zero (S := S10000x16) hz, View.ld_unit_zero (S := S10000x1) hz, View.ld_unit_zero (S := S1x16) hz,
    View.ld_unit_zero (S := S16x16) hz, View.ld_unit_zero (S := S16x1) hz, View.ld_unit_zero (S := S1x1) hz]
  funext j
  obtain ⟨p, q, rfl⟩ : ∃ (p : Fin 10000) (q : Fin 1), j = ix2 p q := ⟨j 0, j 1, eq_ix2 j⟩
  refine (tile_apply (iblk2 V c 0 t) (iblk2 V c 1 t) (iblk2 V c 2 t) (iblk2 V c 3 t) (iblk2 V c 4 t) (iblk2 V c 5 t)
    (iblk2 V c 6 t) (iblk2 V c 7 t) p q).trans ?_
  rw [View.read_apply]
  have hE : ((cfg2.win 8).blk t).view.emb (ix2 p q)
      = (ix2 (⟨t.val * 10000 + p.val, by have := p.isLt; omega⟩ : Fin 100000) q : S100000x1.Idx) := by
    funext a
    apply Fin.ext
    match a with
    | ⟨0, _⟩ => show win2_8.index t (0 : Fin 2) * 10000 + 1 * p.val = t.val * 10000 + p.val; rw [e0]; omega
    | ⟨1, _⟩ => show win2_8.index t (1 : Fin 2) * 1 + 1 * q.val = q.val; rw [e1]; omega
  rw [hE]
  show GraphConv.headAt _ _ _ _ _ _ _ _ p q = GraphConv.headAt _ _ _ _ _ _ _ _ (⟨t.val * 10000 + p.val, _⟩ : Fin 100000) q
  unfold GraphConv.headAt GraphConv.mlpAt
  rw [whole_b2 V c t (ix2 (0 : Fin 1) q)]
  refine congrArg (· + _) (Finset.sum_congr rfl fun j _ => ?_)
  rw [whole_b1 V c t (ix2 (0 : Fin 1) j), whole_w2 V c t (ix2 j q)]
  show max (GraphConv.layerAt _ _ _ _ _ p j + _) 0 * _ = max (GraphConv.layerAt _ _ _ _ _ (⟨t.val * 10000 + p.val, _⟩ : Fin 100000) j + _) 0 * _
  unfold GraphConv.layerAt GraphConv.combineAt
  refine congrArg (fun s => max (s + _) 0 * _) (Finset.sum_congr rfl fun k _ => ?_)
  rw [rows_agg V c t (ix2 p k) (ix2 (⟨t.val * 10000 + p.val, by have := p.isLt; omega⟩ : Fin 100000) k) rfl rfl,
    rows_h V c t (ix2 p k) (ix2 (⟨t.val * 10000 + p.val, by have := p.isLt; omega⟩ : Fin 100000) k) rfl rfl,
    rows_d V c t (ix2 p (0 : Fin 1)) (ix2 (⟨t.val * 10000 + p.val, by have := p.isLt; omega⟩ : Fin 100000) (0 : Fin 1)) rfl rfl,
    whole_b V c t (ix2 (0 : Fin 1) k), whole_w1 V c t (ix2 k j)]

/-- Every row of the output is in the tile of the point its row number divided by 10000 names. -/
theorem covered (i : S100000x1.Idx) :
    ∃ t : Fin cfg2.N, (cfg2.win 8).flush t = true ∧ i ∈ ((cfg2.win 8).blk t).view.set := by
  have hN : cfg2.N = 10 := N_2
  have hi0 : (i 0).val < 100000 := (i 0).isLt
  have hi1 : (i 1).val < 1 := (i 1).isLt
  let t : Fin cfg2.N := ⟨(i 0).val / 10000, by rw [hN]; omega⟩
  have ht : t.val = (i 0).val / 10000 := rfl
  obtain ⟨-, -, -, -, -, -, -, -, ⟨e0, e1⟩⟩ := index_facts t
  refine ⟨t, flush2_8 t, ?_⟩
  show i ∈ ((View.whole main_v60).slice (win2_8.rect t)).set
  rw [View.set_slice_whole, Rect.mem_set_unit]
  intro a
  match a with
  | ⟨0, _⟩ =>
    show win2_8.index t (0 : Fin 2) * 10000 ≤ (i 0).val ∧ (i 0).val < win2_8.index t (0 : Fin 2) * 10000 + 10000
    rw [e0, ht]; omega
  | ⟨1, _⟩ =>
    show win2_8.index t (1 : Fin 2) * 1 ≤ (i 1).val ∧ (i 1).val < win2_8.index t (1 : Fin 2) * 1 + 1
    rw [e1]; omega

/-- After the region its output column is `out` of the arrays it found. -/
theorem array_eq (c : Dev nD) : (dat2 V c).arrAt 8 cfg2.N = out V c :=
  (dat2 V c).arrAt_eq_of_cover 8 (out V c) (fun t _ => flushed_eq V c t) (covered)

end Cert.KernelIdeal.Head

end
-- ==== Proof.Stretch3.lean ====
/-
  From the third region to the result.

  The third region leaves, at every entry of its output column, the second graph layer's rectified combination
  pushed through the two-layer head: the reference's last stage before its final reshape (the reference recomputes the
  squared normalisation for its second layer; it is the first one). The one host operation that follows reshapes the
  column to a vector, as the reference does.
-/
import proofs.«153867_j77421080478455_1_alg».proof.Proof.Gen.KernelIdeal.Frame
import proofs.«153867_j77421080478455_1_alg».proof.Proof.Gen.ReferenceIdeal.Read
import proofs.«153867_j77421080478455_1_alg».proof.Proof.Stretch2
import proofs.«153867_j77421080478455_1_alg».proof.Proof.Region2
import proofs.«153867_j77421080478455_1_alg».proof.Proof.RefLayers
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen Cert.ReferenceIdeal.Read

variable (m : (ℓ : Loc nD τ sig) → Buf (Elt Ideal) ℓ) (ρ : Dev nD → PrngReg) (c : Dev nD)

/-- The third region, entered at ANY buffer contents that hold the second aggregation, h2, the column of squared
    normalisations and the small operands where its windows read them, leaves the reference's last stage before the
    reshape. -/
theorem head_of (V : (c : Dev nD) → (b : Ref sig .tc) → Buf (Elt Ideal) ((c : Thread nD τ).loc b))
    (x0 : S100000x128.Idx → EReal) (x1 : S2x3200000.Idx → BitVec 32) (x2 : S128x16.Idx → EReal)
    (x3 : S16.Idx → EReal) (x4 : S16x16.Idx → EReal)
    (x5 : S16.Idx → EReal) (x6 : S16x16.Idx → EReal) (x7 : S16.Idx → EReal) (x8 : S16x1.Idx → EReal) (x9 : S1.Idx → EReal)
    (ha : V c main_v59 = val_main_v84 (F := Ideal) x0 x1 x2 x3 x4) (hh : V c main_v46 = val_main_v49 (F := Ideal) x0 x1 x2 x3 x4)
    (hd : V c main_v27 = shapeCast S100000x1 (val_main_v40 (F := Ideal) x1) shapeCasts_S100000_S100000x1)
    (hb : V c main_v29 = shapeCast S1x16 x5 shapeCasts_S16_S1x16) (hw1 : V c main_arg6 = x6)
    (hb1 : V c main_v30 = shapeCast S1x16 x7 shapeCasts_S16_S1x16) (hw2 : V c main_arg8 = x8)
    (hb2 : V c main_v31 = shapeCast S1x1 x9 shapeCasts_S1_S1x1) :
    (dat2 V c).arrAt 8 cfg2.N = val_main_v102 (F := Ideal) x0 x1 x2 x3 x4 x5 x6 x7 x8 x9 := by
  rw [Cert.KernelIdeal.Head.array_eq,
    Cert.ReferenceIdeal.Layers.mlp_eq _ _ _ _ _ _ _ _ _ _ shapeCasts_S16_S1x16 shapeCasts_S1_S1x1,
    Cert.ReferenceIdeal.Layers.layer2_eq _ _ _ _ _ _ _ shapeCasts_S100000_S100000x1 shapeCasts_S16_S1x16,
    Cert.ReferenceIdeal.Layers.selfw_again]
  unfold Cert.KernelIdeal.Head.out GraphConv.headAt
  rw [ha, hh, hd, hb, hw1, hb1, hw2, hb2]

/-- After the third region its output column is the reference's last stage before the reshape. -/
theorem exit2_out : W6 m ρ c (Proc.devRef .tc main_v60) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 8).trans (head_of c (V5 m ρ) _ _ _ _ _ _ _ _ _ _ (entry2_agg m ρ c) (entry2_h2 m ρ c) (entry2_selfw m ρ c)
    (entry2_b2 m ρ c) (entry2_arg6 m ρ c) (entry2_b3 m ρ c) (entry2_arg8 m ρ c) (entry2_b4 m ρ c))

/-- The program's result buffer holds the reference's result function of the argument arrays. -/
theorem result_eq : W7 m ρ c (Proc.devRef .tc main_v61) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v61) = _
  after_results
  rw [exit2_out]
  rfl

end Cert.KernelIdeal.Stretch

end
-- ==== Proof.lean ====
/-
  The certificate of a two-layer graph-convolution network with a two-layer head, as three pipelined kernels among
  host-side edge aggregation, against its array-program reference, on the extended reals.

  Both programs compute, for n = 100000 nodes and 3.2 million edges with rows src and dst,

      deg = 1 + (number of edges into each node),   d = deg^(-1/2),   w(e) = d(src e) · d(dst e),
      h1  = x · W1,
      agg1(p, ·) = sum over the edges e into p of h1(src e, ·) · w(e),
      h2  = max (agg1 + d² · h1 + b1, 0) · W2,
      agg2 likewise from h2,
      out = max (max (agg2 + d² · h2 + b2, 0) · L1 + l1, 0) · L2 + l2,   reshaped to a vector of length n.

  The kernel program does the three dense stages in row tiles of 10000 nodes on the matrix unit (operands narrowed to
  a 16-bit format first: the identity on the extended reals) and everything edge-indexed by the same host operations as
  the reference. The dense stages agree entry by entry: a tile's sum over the contracted axis is the whole product's
  (Region0 / Region1 / Region2 read the regions, RefLayers the reference's stages, both as the formulas of
  LibGraphConvTile); the aggregations are the same operations applied to equal operands (Stretch0 … Stretch3); the
  reference recomputes d and w for its second layer from the same edge list, by the same operations. No step moves a
  factor across a sum or cancels anything, so the inputs' finiteness is never used. The ideal pass rewrote nothing
  (there is no sign-bit, packing or named-constant site), so the idealization's conjunct is trivial.
-/
import proofs.«153867_j77421080478455_1_alg».proof.Defs
import proofs.«153867_j77421080478455_1_alg».proof.Proof.Gen.Kernel
import proofs.«153867_j77421080478455_1_alg».proof.Proof.Gen.Kernel.Skeleton
import proofs.«153867_j77421080478455_1_alg».proof.Proof.Gen.Kernel.Launch
import proofs.«153867_j77421080478455_1_alg».proof.Proof.Gen.Kernel.Points
import proofs.«153867_j77421080478455_1_alg».proof.Proof.Gen.Kernel.Frame
import proofs.«153867_j77421080478455_1_alg».proof.Proof.Gen.KernelIdeal
import proofs.«153867_j77421080478455_1_alg».proof.Proof.Gen.KernelIdeal.Skeleton
import proofs.«153867_j77421080478455_1_alg».proof.Proof.Gen.KernelIdeal.Launch
import proofs.«153867_j77421080478455_1_alg».proof.Proof.Gen.KernelIdeal.Points
import proofs.«153867_j77421080478455_1_alg».proof.Proof.Gen.KernelIdeal.Frame
import proofs.«153867_j77421080478455_1_alg».proof.Proof.Gen.ReferenceIdeal
import proofs.«153867_j77421080478455_1_alg».proof.Proof.Gen.ReferenceIdeal.Run
import proofs.«153867_j77421080478455_1_alg».proof.Proof.Gen.ReferenceIdeal.Read
import proofs.«153867_j77421080478455_1_alg».proof.Proof.Gen.Pre_finite_inputs
import proofs.«153867_j77421080478455_1_alg».proof.Proof.KernelRun
import proofs.«153867_j77421080478455_1_alg».proof.Proof.Stretch3
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments both programs end with the same vector: the reference's result
    function of the arguments. The kernel program's result buffer holds it by the chain of regions and host stretches;
    the reference's by its own run. -/
theorem algebraic : Cert.algebraic_KernelIdeal_ReferenceIdeal := by
  intro m ρ m' ρ' _ hagree
  refine ⟨fun c => Cert.ReferenceIdeal.Read.val_main_v103 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Stretch.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v103_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
